-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S2048x512 : Shape := ⟨2, ![2048, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S32768x512 .f32) (main_arg1 : FVec F S2048x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S32768x512 : Shape := ⟨2, ![32768, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S512x2048 : Shape := ⟨2, ![512, 2048]⟩
abbrev S32768x2048 : Shape := ⟨2, ![32768, 2048]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S2048x512, .f32⟩
  | .hbm, ⟨2, _⟩ => ⟨S2048x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S1x2048, .f32⟩
  | .hbm, ⟨7, _⟩ => ⟨S512x2048, .f32⟩
  | .hbm, ⟨8, _⟩ => ⟨S512x2048, .bf16⟩
  | .hbm, ⟨9, _⟩ => ⟨S32768x2048, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  transposes_S2048x512_S512x2048_1_0 : S2048x512.Transposes [1, 0] S512x2048
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S2048x512 : Shape := ⟨2, ![2048, 512]⟩
abbrev S_ : Shape := ⟨0, ![]⟩
abbrev S32768 : Shape := ⟨1, ![32768]⟩
abbrev S32768x1 : Shape := ⟨2, ![32768, 1]⟩
abbrev S2048 : Shape := ⟨1, ![2048]⟩
abbrev S1x2048 : Shape := ⟨2, ![1, 2048]⟩
abbrev S32768x2048 : Shape := ⟨2, ![32768, 2048]⟩
abbrev S512x2048 : Shape := ⟨2, ![512, 2048]⟩

abbrev nBuf : Space → Nat
  | .hbm => 48
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S2048x512, .f32⟩
  | .hbm, ⟨2, _⟩ => ⟨S32768x512, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S512x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S_, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768, .f32⟩
  | .hbm, ⟨36, _⟩ => ⟨S_, .f32⟩
  | .hbm, ⟨37, _⟩ => ⟨S32768, .f32⟩
  | .hbm, ⟨38, _⟩ => ⟨S32768, .f32⟩
  | .hbm, ⟨39, _⟩ => ⟨S32768x1, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S32768x2048, .f32⟩
  | .hbm, ⟨47, _⟩ => ⟨S32768x2048, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S2048x512_S2048_d1 : S2048x512.ReducesTo [1] S2048
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  transposes_S2048x512_S512x2048_1_0 : S2048x512.Transposes [1, 0] S512x2048
  bcast_S_S32768x2048 : S_.BroadcastsInDim S32768x2048 (![] : Fin 0 → Fin S32768x2048.rank)
  reducesTo_S32768x2048_S32768_d1 : S32768x2048.ReducesTo [1] S32768
  bcast_S_S32768 : S_.BroadcastsInDim S32768 (![] : Fin 0 → Fin S32768.rank)
  dot_S32768x512_S512x2048_S32768x2048_1_0_0_1_n_n_wf : DotDims.WF S32768x512 S512x2048 S32768x2048 [1] [0] [0] [1] [] []

variable [Facts₀]

def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf

class Facts : Prop extends Facts₀ where

variable [Facts]
-- ==== Proof.Spec.lean ====
/-
  The mathematics of the certificate, apart from any program.

  For an input matrix `X` (32768 rows of 512 numbers) and a matrix of centres `C` (2048 rows of 512 numbers), both over
  the extended reals, put for a row `r` of `X` and a centre `k`
    d²(r, k) = (‖X r‖² + ‖C k‖²) − 2 · ⟨X r, C k⟩        (the squared distance, through the Gram form),
    s(r, k)  = 1 / (1 + max (d²(r, k)) 0 / 1)            (a Cauchy score: large when the row is near the centre),
  and let the result at (r, k) be the softmax of row r's 2048 scores: exp (s(r, k) − M r) / Σ k', exp (s(r, k') − M r),
  with M r the largest score of the row (folded from −∞).
  Everything is spelt with the extended reals' own operations (`Ideal.div`, `Ideal.exp`) and with the four float words the
  programs use (0, 1, 2, −∞) left as words: the same word stands on both sides of every comparison made later, so only two
  facts about words are needed, both here: the zero word is `0`, and raising to the power the word `1` changes nothing.
-/
import Idealize.ShloMosaic.PureOps.Ideal
import Idealize.ShloMosaic.PureOps.Ideal.Laws
import Idealize.ShloMosaic.Lib.ValueIdx

noncomputable section

namespace Cert.Soft

open Idealize.ShloMosaic Idealize.ShloMosaic.ValueIdx

/-- The float words of the two programs, read as extended reals. -/
abbrev w0 : EReal := Ideal.ofBits .f32 0x00000000#32
abbrev w1 : EReal := Ideal.ofBits .f32 0x3F800000#32
abbrev w2 : EReal := Ideal.ofBits .f32 0x40000000#32
abbrev wNegInf : EReal := Ideal.ofBits .f32 0xFF800000#32

/-- The word `0x3F800000` is the number one. -/
theorem w1_eq : w1 = 1 := by
  simp [Ideal.ofBits, Ideal.ieee, -EReal.coe_mul]; norm_num

/-- Raising to the first power is the identity on every extended real: on a real it is `Real.rpow_one`, and the two
    infinities are fixed because the exponent is positive. -/
theorem pow_w1 (x : EReal) : Ideal.pow x w1 = x := by
  rw [w1_eq]
  induction x using EReal.rec with
  | bot => rfl
  | top => rw [Ideal.pow_top, if_pos zero_lt_one]
  | coe r =>
    show Ideal.pow (r : EReal) ((1 : ℝ) : EReal) = (r : EReal)
    rw [Ideal.pow_coe_coe]
    exact congrArg _ (Real.rpow_one r)

/-- The score of a row against a centre from the row's squared norm `a`, the centre's squared norm `b` and their inner
    product `g`. -/
def score (a b g : EReal) : EReal :=
  Ideal.div w1 (w1 + Ideal.div (max (a + b - w2 * g) w0) w1)

/-- The largest of a row's 2048 scores, folded from −∞ (and compared with −∞ once more, as both programs do). -/
def top (f : Fin 2048 → EReal) : EReal :=
  max wNegInf ((Finset.univ : Finset (Fin 2048)).fold max wNegInf f)

/-- The softmax of a row of 2048 scores, at position `k`. -/
def softmaxRow (f : Fin 2048 → EReal) (k : Fin 2048) : EReal :=
  Ideal.div (Ideal.exp (f k - top f)) (∑ k' : Fin 2048, Ideal.exp (f k' - top f))

/-- ‖X r‖². -/
def rowSq (X : (⟨2, ![32768, 512]⟩ : Shape).Idx → EReal) (r : Fin 32768) : EReal :=
  ∑ d : Fin 512, X (ix2 r d) * X (ix2 r d)

/-- ‖C k‖². -/
def cenSq (C : (⟨2, ![2048, 512]⟩ : Shape).Idx → EReal) (k : Fin 2048) : EReal :=
  ∑ d : Fin 512, C (ix2 k d) * C (ix2 k d)

/-- ⟨X r, C k⟩. -/
def inner (X : (⟨2, ![32768, 512]⟩ : Shape).Idx → EReal) (C : (⟨2, ![2048, 512]⟩ : Shape).Idx → EReal)
    (r : Fin 32768) (k : Fin 2048) : EReal :=
  ∑ d : Fin 512, X (ix2 r d) * C (ix2 k d)

/-- Row `r`'s scores against the 2048 centres. -/
def scores (X : (⟨2, ![32768, 512]⟩ : Shape).Idx → EReal) (C : (⟨2, ![2048, 512]⟩ : Shape).Idx → EReal)
    (r : Fin 32768) : Fin 2048 → EReal :=
  fun k => score (rowSq X r) (cenSq C k) (inner X C r k)

/-- THE RESULT: entry (r, k) is the softmax of row `r`'s scores at `k`. -/
def result (X : (⟨2, ![32768, 512]⟩ : Shape).Idx → EReal) (C : (⟨2, ![2048, 512]⟩ : Shape).Idx → EReal) :
    (⟨2, ![32768, 2048]⟩ : Shape).Idx → EReal :=
  fun i => softmaxRow (scores X C (i 0)) (i 1)

theorem result_ix2 (X : (⟨2, ![32768, 512]⟩ : Shape).Idx → EReal) (C : (⟨2, ![2048, 512]⟩ : Shape).Idx → EReal)
    (r : Fin 32768) (k : Fin 2048) : result X C (ix2 r k) = softmaxRow (scores X C r) k := rfl

end Cert.Soft

end
-- ==== Proof.Body.lean ====
/-
  Reading a 512-row block entry by entry over the extended reals: the layout step that spreads a column of 512 numbers
  over 2048 lanes, the lane reductions as sums and a maximum over a row's coordinates, and the matrix product into a zero
  accumulator as the sum over the shared coordinate.
-/
import proofs.«159190_j2010044694578_1_alg».proof.Proof.Gen.KernelIdeal.Skeleton
import proofs.«159190_j2010044694578_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Soft

/-! ## Layout: a column of 512 numbers spread over 2048 lanes -/

/-- A vector of 512 numbers viewed as a 512 × 1 column and then broadcast to 512 × 2048 reads, at (p, q), its entry p. -/
theorem colBroadcast_apply {α : Type} (v : S512.Idx → α) (h1 : S512.ShapeCasts S512x1) (h2 : S512x1.Broadcasts S512x2048)
    (p : Fin 512) (q : Fin 2048) : broadcastTo S512x2048 (shapeCast S512x1 v h1) h2 (ix2 p q) = v (ix1 p) := by
  refine (broadcastTo_apply _ h2 (ix2 p q) (ix2 p (0 : Fin 1)) fun a => ?_).trans ?_
  · match a with
    | ⟨0, _⟩ => show p.val = if (512 : ℕ) = 1 then 0 else p.val; rw [if_neg (by decide)]
    | ⟨1, _⟩ => show 0 = if (1 : ℕ) = 1 then 0 else q.val; rw [if_pos rfl]
  · exact shapeCast_apply v h1 (ix2 p (0 : Fin 1)) (ix1 p) (by
      rw [Shape.rowMajor_val_two, Shape.rowMajor_val_one]
      show p.val = p.val * 1 + 0
      omega)

/-! ## The lane reductions, read as sums and a maximum over a row's coordinates -/

/-- The lane sum of a 512 × 512 block at row p is the sum of the row's 512 entries. -/
theorem rowSum512 (v : FVec Ideal S512x512 .f32) (h : S512x512.Reduces [1] S512) (hφ : FKind.Formats .f32)
    (hacc : (0x00000000#32 : BitVec 32) = 0x00000000#32) (p : Fin 512) :
    multiReduction .add [1] S512 v 0x00000000#32 h hφ hacc (ix1 p) = ∑ d : Fin 512, v (ix2 p d) := by
  refine (Ideal.multiReduction_add_single v _ h hφ hacc (ix1 p)).trans ?_
  exact Finset.sum_congr rfl fun d _ => congrArg v (funext fun a => Fin.ext (by
    match a with
    | ⟨0, _⟩ => rfl
    | ⟨1, _⟩ => rfl))

/-- The lane sum of a 512 × 2048 block at row p is the sum of the row's 2048 entries. -/
theorem rowSum2048 (v : FVec Ideal S512x2048 .f32) (h : S512x2048.Reduces [1] S512) (hφ : FKind.Formats .f32)
    (hacc : (0x00000000#32 : BitVec 32) = 0x00000000#32) (p : Fin 512) :
    multiReduction .add [1] S512 v 0x00000000#32 h hφ hacc (ix1 p) = ∑ k : Fin 2048, v (ix2 p k) := by
  refine (Ideal.multiReduction_add_single v _ h hφ hacc (ix1 p)).trans ?_
  exact Finset.sum_congr rfl fun d _ => congrArg v (funext fun a => Fin.ext (by
    match a with
    | ⟨0, _⟩ => rfl
    | ⟨1, _⟩ => rfl))

/-- The lane maximum of a 512 × 2048 block at row p is the fold of `max` from −∞ over the row's 2048 entries. -/
theorem rowMax2048 (v : FVec Ideal S512x2048 .f32) (h : S512x2048.Reduces [1] S512) (hφ : FKind.Formats .f32)
    (hacc : (0xFF800000#32 : BitVec 32) = 0xFF800000#32) (p : Fin 512) :
    multiReduction .maximumf [1] S512 v 0xFF800000#32 h hφ hacc (ix1 p)
      = (Finset.univ : Finset (Fin 2048)).fold max wNegInf (fun k => v (ix2 p k)) := by
  refine (Ideal.multiReduction_maximumf_single v _ h hφ hacc (ix1 p)).trans ?_
  have hf : (v ∘ h.lift (ix1 p)) = fun k : Fin 2048 => v (ix2 p k) := funext fun k => congrArg v (funext fun a => Fin.ext (by
    match a with
    | ⟨0, _⟩ => rfl
    | ⟨1, _⟩ => rfl))
  exact congrArg (fun f => Finset.fold max wNegInf f (Finset.univ : Finset (Fin 2048))) hf

/-! ## The matrix product into a zero accumulator, read as a sum over the contracted coordinate -/

theorem gram_lhs_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem gram_lhs_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem gram_rhs_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem gram_rhs_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- Entry (p, q) of the product of a 512 × 512 block with a 512 × 2048 table, accumulated from zero, is the sum over the
    shared coordinate d of (p, d) times (d, q). -/
theorem gram_apply (l : FVec Ideal S512x512 .bf16) (r : FVec Ideal S512x2048 .bf16) (p : Fin 512) (q : Fin 2048) :
    matmul dot_S512x512_S512x2048_S512x2048_1_0_0_1_n_n none l r (constant (F := Ideal) S512x2048 .f32 0x00000000#32) (ix2 p q)
      = ∑ d : Fin 512, l (ix2 p d) * r (ix2 d q) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p q) ((ValueIdx.contrEquiv1 dot_S512x512_S512x2048_S512x2048_1_0_0_1_n_n 512 rfl rfl).symm k) = ix2 p k := funext fun a => Fin.ext (by
    match a with
    | ⟨0, _⟩ => exact gram_lhs_0 _ _
    | ⟨1, _⟩ => exact (gram_lhs_1 _ _).trans hk)
  have er : dot_S512x512_S512x2048_S512x2048_1_0_0_1_n_n.rhsIdx (ix2 p q) ((ValueIdx.contrEquiv1 dot_S512x512_S512x2048_S512x2048_1_0_0_1_n_n 512 rfl rfl).symm k) = ix2 k q := funext fun a => Fin.ext (by
    match a with
    | ⟨0, _⟩ => exact (gram_rhs_0 _ _).trans hk
    | ⟨1, _⟩ => exact gram_rhs_1 _ _)
  rw [el, er]

/-- A scalar float word, read over the extended reals. -/
theorem scalar_ofBits (φ : FTy) (b : BitVec φ.bits) : Scalar.ofBits (F := Ideal) φ b = Ideal.ofBits φ b := rfl

theorem exp_apply {s : Shape} {φ : FTy} (a : FVec Ideal s φ) (i : s.Idx) : exp a i = Ideal.exp (a i) := rfl

end Cert.KernelIdeal.Body

end
-- ==== Proof.Payload.lean ====
/-
  The kernel body's arithmetic, read entry by entry over the extended reals.

  One grid point holds a block `x0` of 512 rows of the input (512 numbers each), the whole table `x1` of centres laid
  out coordinate-major (entry (d, k) is coordinate d of centre k) and the row `x2` of the centres' squared norms. What the
  body stores at (p, q) is the softmax, at q, of row p's 2048 scores, the score against centre k being
  `score (Σ d, x0 (p, d)²) (x2 (0, k)) (Σ d, x0 (p, d) · x1 (d, k))`: the lane sum is the row's squared norm, the matrix
  product into a zero accumulator is the inner product, and the rounding of both factors to bf16 changes nothing here.
-/
import proofs.«159190_j2010044694578_1_alg».proof.Proof.Body

noncomputable section

namespace Cert.KernelIdeal.Body

open Cert.KernelIdeal Cert.KernelIdeal.Gen Idealize.ShloMosaic Idealize.ShloMosaic.ValueIdx Cert.Soft

/-! ## The payload, in the pieces its mathematics has -/

/-- The rows' squared norms, spread over the 2048 lanes: entry (p, ·) is Σ d, x0 (p, d)². -/
def sqCol (x0 : FVec Ideal S512x512 .f32) : FVec Ideal S512x2048 .f32 :=
  broadcastTo S512x2048 (shapeCast S512x1 (multiReduction .add [1] S512 (mulf x0 x0) 0x00000000#32 reduces_S512x512_S512 (.inl rfl) rfl)
    shapeCasts_S512_S512x1) broadcasts_S512x1_S512x2048

/-- The centres' squared norms, repeated down the 512 rows: entry (·, k) is x2 (0, k). -/
def cenRow (x2 : FVec Ideal S1x2048 .f32) : FVec Ideal S512x2048 .f32 :=
  broadcastTo S512x2048 (shapeCast S1x2048 x2 shapeCasts_S1x2048_S1x2048) broadcasts_S1x2048_S512x2048

/-- The block of inner products of the 512 rows with the 2048 centres. -/
def gramBlk (x0 : FVec Ideal S512x512 .f32) (x1 : FVec Ideal S512x2048 .bf16) : FVec Ideal S512x2048 .f32 :=
  matmul dot_S512x512_S512x2048_S512x2048_1_0_0_1_n_n none (truncf .bf16 x0 bitsLt_bf16_f32)
    (shapeCast S512x2048 x1 shapeCasts_S512x2048_S512x2048) (constant S512x2048 .f32 0x00000000#32)

/-- The block of scores 1 / (1 + max (‖x‖² + ‖c‖² − 2⟨x, c⟩) 0 / 1). -/
def scoreBlk (x0 : FVec Ideal S512x512 .f32) (x1 : FVec Ideal S512x2048 .bf16) (x2 : FVec Ideal S1x2048 .f32) :
    FVec Ideal S512x2048 .f32 :=
  divf (broadcast S512x2048 (Scalar.ofBits .f32 0x3F800000#32))
    (addf (broadcast S512x2048 (Scalar.ofBits .f32 0x3F800000#32))
      (divf (maximumf (subf (addf (sqCol x0) (cenRow x2)) (mulf (broadcast S512x2048 (Scalar.ofBits .f32 0x40000000#32)) (gramBlk x0 x1)))
          (broadcast S512x2048 (Scalar.ofBits .f32 0x00000000#32)))
        (broadcast S512x2048 (Scalar.ofBits .f32 0x3F800000#32))))

/-- Each row's largest score, spread over the lanes. -/
def rowTop (v : FVec Ideal S512x2048 .f32) : FVec Ideal S512x2048 .f32 :=
  broadcastTo S512x2048 (shapeCast S512x1 (maximumf (broadcast S512 (Scalar.ofBits .f32 0xFF800000#32))
      (multiReduction .maximumf [1] S512 v 0xFF800000#32 reduces_S512x2048_S512 (.inl rfl) rfl)) shapeCasts_S512_S512x1)
    broadcasts_S512x1_S512x2048

/-- exp (score − the row's largest score). -/
def expBlk (v : FVec Ideal S512x2048 .f32) : FVec Ideal S512x2048 .f32 := exp (subf v (rowTop v))

/-- Each row's sum of those exponentials, spread over the lanes. -/
def rowDen (v : FVec Ideal S512x2048 .f32) : FVec Ideal S512x2048 .f32 :=
  broadcastTo S512x2048 (shapeCast S512x1 (multiReduction .add [1] S512 (expBlk v) 0x00000000#32 reduces_S512x2048_S512 (.inl rfl) rfl)
    shapeCasts_S512_S512x1) broadcasts_S512x1_S512x2048

/-- The softmax of every row of a block of scores. -/
def softBlk (v : FVec Ideal S512x2048 .f32) : FVec Ideal S512x2048 .f32 := divf (expBlk v) (rowDen v)

/-- The stored value is the softmax of the block of scores: the body's operations, grouped. -/
theorem pay_split (x0 : FVec Ideal S512x512 .f32) (x1 : FVec Ideal S512x2048 .bf16) (x2 : FVec Ideal S1x2048 .f32) :
    k0_pay1 (F := Ideal) x0 x1 x2 = softBlk (scoreBlk x0 x1 x2) := rfl

theorem sqCol_apply (x0 : FVec Ideal S512x512 .f32) (p : Fin 512) (k : Fin 2048) :
    sqCol x0 (ix2 p k) = ∑ d : Fin 512, x0 (ix2 p d) * x0 (ix2 p d) :=
  (colBroadcast_apply _ _ _ p k).trans (rowSum512 (mulf x0 x0) _ _ _ p)

theorem cenRow_apply (x2 : FVec Ideal S1x2048 .f32) (p : Fin 512) (k : Fin 2048) : cenRow x2 (ix2 p k) = x2 (ix2 (0 : Fin 1) k) :=
  (broadcastTo_1b_ab_apply _ _ p k).trans (congrFun (shapeCast_self x2 _) _)

theorem gramBlk_apply (x0 : FVec Ideal S512x512 .f32) (x1 : FVec Ideal S512x2048 .bf16) (p : Fin 512) (k : Fin 2048) :
    gramBlk x0 x1 (ix2 p k) = ∑ d : Fin 512, x0 (ix2 p d) * x1 (ix2 d k) := by
  unfold gramBlk
  rw [shapeCast_self]
  exact gram_apply _ _ p k

/-- A score, entry by entry. -/
theorem scoreBlk_apply (x0 : FVec Ideal S512x512 .f32) (x1 : FVec Ideal S512x2048 .bf16) (x2 : FVec Ideal S1x2048 .f32)
    (p : Fin 512) (k : Fin 2048) :
    scoreBlk x0 x1 x2 (ix2 p k)
      = score (∑ d : Fin 512, x0 (ix2 p d) * x0 (ix2 p d)) (x2 (ix2 (0 : Fin 1) k)) (∑ d : Fin 512, x0 (ix2 p d) * x1 (ix2 d k)) := by
  rw [← sqCol_apply x0 p k, ← cenRow_apply x2 p k, ← gramBlk_apply x0 x1 p k]
  rfl

theorem rowTop_apply (v : FVec Ideal S512x2048 .f32) (p : Fin 512) (q : Fin 2048) :
    rowTop v (ix2 p q) = top (fun k => v (ix2 p k)) := by
  unfold rowTop top
  rw [colBroadcast_apply, maximumf_apply, broadcast_apply, rowMax2048]
  rfl

theorem expBlk_apply (v : FVec Ideal S512x2048 .f32) (p : Fin 512) (q : Fin 2048) :
    expBlk v (ix2 p q) = Ideal.exp (v (ix2 p q) - top (fun k => v (ix2 p k))) := by
  unfold expBlk
  rw [exp_apply, subf_apply, rowTop_apply]

theorem rowDen_apply (v : FVec Ideal S512x2048 .f32) (p : Fin 512) (q : Fin 2048) :
    rowDen v (ix2 p q) = ∑ k' : Fin 2048, Ideal.exp (v (ix2 p k') - top (fun k => v (ix2 p k))) :=
  (colBroadcast_apply _ _ _ p q).trans ((rowSum2048 (expBlk v) _ _ _ p).trans (Finset.sum_congr rfl fun k' _ => expBlk_apply v p k'))

/-- The softmax of a block, entry by entry. -/
theorem softBlk_apply (v : FVec Ideal S512x2048 .f32) (p : Fin 512) (q : Fin 2048) :
    softBlk v (ix2 p q) = softmaxRow (fun k => v (ix2 p k)) q := by
  unfold softBlk softmaxRow
  rw [divf_apply, expBlk_apply, rowDen_apply]

/-- What the body stores at (p, q): the softmax at q of row p's scores against the 2048 centres. -/
theorem pay_apply (x0 : FVec Ideal S512x512 .f32) (x1 : FVec Ideal S512x2048 .bf16) (x2 : FVec Ideal S1x2048 .f32)
    (p : Fin 512) (q : Fin 2048) :
    k0_pay1 (F := Ideal) x0 x1 x2 (ix2 p q)
      = softmaxRow (fun k => score (∑ d : Fin 512, x0 (ix2 p d) * x0 (ix2 p d)) (x2 (ix2 (0 : Fin 1) k))
          (∑ d : Fin 512, x0 (ix2 p d) * x1 (ix2 d k))) q := by
  rw [pay_split, softBlk_apply]
  exact congrArg (fun f => softmaxRow f q) (funext fun k => scoreBlk_apply x0 x1 x2 p k)

end Cert.KernelIdeal.Body

end
-- ==== Proof.HostPre.lean ====
/-
  What the host computes before the kernel is launched, read entry by entry over the extended reals.

  Two of the kernel's operands are prepared from the centres `C` on the host: the table of centres laid out
  coordinate-major (the transpose of `C`, then rounded to bf16, which changes nothing here) — entry (d, k) is `C (k, d)` —
  and the row of the centres' squared norms (the product of `C` with itself entry by entry, summed over the 512
  coordinates from the zero word, viewed as a column, transposed into a row) — entry (0, k) is `Σ d, C (k, d)²`.
-/
import proofs.«159190_j2010044694578_1_alg».proof.Proof.Gen.KernelIdeal.Frame
import proofs.«159190_j2010044694578_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostPre

open Cert.KernelIdeal Cert.KernelIdeal.Gen Idealize.ShloMosaic Idealize.ShloMosaic.TcCoe Idealize.SL.Sem Idealize.ShloMosaic.StableHlo
open Idealize.ShloMosaic.ValueIdx Cert.Soft

variable (m : (ℓ : Loc nD τ sig) → Buf (Elt Ideal) ℓ)

/-- The table of centres as the region finds it: the transpose of the second argument, rounded. -/
theorem table_eq (c : Dev nD) :
    (V m c main_v5 : S512x2048.Idx → EReal)
      = truncf (F := Ideal) .bf16 (transpose S512x2048 [1, 0] (m ((c : Thread nD τ).loc main_arg1)) transposes_S2048x512_S512x2048_1_0) bitsLt_bf16_f32 := by
  dsimp only [Gen.V, Gen.hostOps0]
  after_results <;> rfl

/-- Entry (d, k) of the table is coordinate d of centre k. -/
theorem table_apply (c : Dev nD) (d : Fin 512) (k : Fin 2048) :
    (V m c main_v5 : S512x2048.Idx → EReal) (ix2 d k) = m ((c : Thread nD τ).loc main_arg1) (ix2 k d) := by
  rw [table_eq, truncf_apply]
  exact transpose_apply [1, 0] _ transposes_S2048x512_S512x2048_1_0 (ix2 d k) (ix2 k d) (fun b => match b with
    | ⟨0, _⟩ => rfl
    | ⟨1, _⟩ => rfl)

/-- The row of squared norms as the region finds it. -/
theorem norms_eq (c : Dev nD) :
    (V m c main_v3 : S1x2048.Idx → EReal)
      = transpose S1x2048 [1, 0] (broadcastInDim S2048x1 ![0] bcast_S2048_S2048x1_0
          (Host.reduceAdd (F := Ideal) (mulf (F := Ideal) (m ((c : Thread nD τ).loc main_arg1)) (m ((c : Thread nD τ).loc main_arg1)))
            (constant (F := Ideal) S_ .f32 0x00000000#32) reducesTo_S2048x512_S2048_d1 h_S_)) transposes_S2048x1_S1x2048_1_0 := by
  dsimp only [Gen.V, Gen.hostOps0]
  after_results <;> rfl

/-- The host's sum over the 512 coordinates of a centre's squares, from the zero word, is the centre's squared norm. -/
theorem hostSq_apply (A : FVec Ideal S2048x512 .f32) (k : Fin 2048) :
    Host.reduceAdd (F := Ideal) (mulf A A) (constant (F := Ideal) S_ .f32 0x00000000#32) reducesTo_S2048x512_S2048_d1 h_S_ (ix1 k)
      = cenSq A k := by
  generalize hy : mulf A A = y0
  simp only [Host.reduceAdd, Ideal.hostReduceAdd_def]
  rw [Ideal.hostReduceAdd_single reducesTo_S2048x512_S2048_d1 (by decide)]
  rw [constant_apply, Ideal.ofBits_zero_f32, zero_add]
  unfold cenSq
  refine Finset.sum_congr rfl fun d _ => ?_
  rw [← hy, ← mulf_apply]
  exact congrArg (mulf A A) (funext fun a => Fin.ext (by
    match a with
    | ⟨0, _⟩ => rfl
    | ⟨1, _⟩ => rfl))

/-- Entry (0, k) of the row is centre k's squared norm. -/
theorem norms_apply (c : Dev nD) (k : Fin 2048) :
    (V m c main_v3 : S1x2048.Idx → EReal) (ix2 (0 : Fin 1) k) = cenSq (m ((c : Thread nD τ).loc main_arg1)) k := by
  rw [norms_eq]
  refine (transpose_apply [1, 0] _ transposes_S2048x1_S1x2048_1_0 (ix2 (0 : Fin 1) k) (ix2 k (0 : Fin 1)) (fun b => match b with
    | ⟨0, _⟩ => rfl
    | ⟨1, _⟩ => rfl)).trans ?_
  refine (broadcastInDim_apply _ bcast_S2048_S2048x1_0 _ (ix2 k (0 : Fin 1)) (ix1 k) (fun a => match a with
    | ⟨0, _⟩ => by show k.val = if (2048 : Nat) = 1 then 0 else k.val; rw [if_neg (by decide)])).trans ?_
  exact hostSq_apply _ k

end Cert.KernelIdeal.HostPre

end
-- ==== Proof.Blocks.lean ====
/-
  From the grid's 64 blocks to the whole result.

  Grid point t works on rows 512·t … 512·t + 511 of the input: its first window is that block of rows, its second and
  third windows are the whole table of centres and the whole row of their squared norms (the same at every point), and
  what it writes back is rows 512·t … 512·t + 511 of the result. Entry (p, q) of what point t stores is the softmax at q
  of row 512·t + p's scores (the body's arithmetic, entry by entry, with the host's two tables read as the centres'
  coordinates and squared norms), that is, `Cert.Soft.result` at (512·t + p, q). The 64 blocks of 512 rows cover the
  32768 rows (row r lies in block r / 512), so after the run the result array is `Cert.Soft.result` of the two arguments.
-/
import proofs.«159190_j2010044694578_1_alg».proof.Proof.Gen.KernelIdeal.Value
import proofs.«159190_j2010044694578_1_alg».proof.Proof.Payload
import proofs.«159190_j2010044694578_1_alg».proof.Proof.HostPre
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Soft

/-! ## One block, over any arrays that stand in the stated relation to the arguments -/

/-- If a block `x0` holds at row p the input's row r, `x1` is the centres coordinate-major and `x2` their squared norms,
    the body's value at (p, q) is the result at (r, q). -/
theorem block_result (X : (⟨2, ![32768, 512]⟩ : Shape).Idx → EReal) (C : (⟨2, ![2048, 512]⟩ : Shape).Idx → EReal)
    (x0 : FVec Ideal S512x512 .f32) (x1 : FVec Ideal S512x2048 .bf16) (x2 : FVec Ideal S1x2048 .f32)
    (r : Fin 32768) (p : Fin 512)
    (h0 : ∀ d : Fin 512, x0 (ix2 p d) = X (ix2 r d))
    (h1 : ∀ (d : Fin 512) (k : Fin 2048), x1 (ix2 d k) = C (ix2 k d))
    (h2 : ∀ k : Fin 2048, x2 (ix2 (0 : Fin 1) k) = cenSq C k) (q : Fin 2048) :
    k0_pay1 (F := Ideal) x0 x1 x2 (ix2 p q) = result X C (ix2 r q) := by
  rw [Body.pay_apply, result_ix2]
  refine congrArg (fun f => softmaxRow f q) (funext fun k => ?_)
  unfold scores rowSq Soft.inner
  rw [h2 k]
  exact congrArg₂ (fun a g => score a (cenSq C k) g) (Finset.sum_congr rfl fun d _ => by rw [h0 d])
    (Finset.sum_congr rfl fun d _ => by rw [h0 d, h1 d k])

variable (m : (ℓ : Loc nD τ sig) → Buf (Elt Ideal) ℓ) (ρ : Dev nD → PrngReg)

theorem origin : (![0, 0] : Fin 2 → Nat) = fun _ => 0 := funext fun a => by fin_cases a <;> rfl

/-- The four windows' block indices at point t, decided over the 64 points: the input's and the result's blocks are the
    t-th along the rows, the two tables' blocks are the whole tables. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three input blocks at point t -/

/-- Row p of the input's block at point t is row 512·t + p of the first argument. -/
theorem rows_apply (c : Dev nD) (t : Fin cfg0.N) (p : Fin 512) (d : Fin 512) (h : 512 * t.val + p.val < 32768) :
    (iblk m c 0 t : S512x512.Idx → EReal) (ix2 p d)
      = m ((c : Thread nD τ).loc main_arg0) (ix2 (⟨512 * t.val + p.val, h⟩ : Fin 32768) d) := by
  obtain ⟨e0, e1, -⟩ := index_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 512 + 1 * d.val = d.val; rw [e1]; omega

/-- The second window's block at any point is the whole table of centres: entry (d, k) is coordinate d of centre k. -/
theorem table_blk (c : Dev nD) (t : Fin cfg0.N) (d : Fin 512) (k : Fin 2048) :
    (iblk m c 1 t : S512x2048.Idx → EReal) (ix2 d k) = m ((c : Thread nD τ).loc main_arg1) (ix2 k d) := by
  obtain ⟨-, -, e2, e3, -⟩ := index_facts t
  show V m c main_v5 (((cfg0.win 1).blk t).view.emb (ix2 d k)) = _
  have hi : ((cfg0.win 1).blk t).view.emb (ix2 d k) = ix2 d k := funext fun a => Fin.ext (by
    match a with
    | ⟨0, _⟩ => show win0_1.index t (0 : Fin 2) * 512 + 1 * d.val = d.val; rw [e2]; omega
    | ⟨1, _⟩ => show win0_1.index t (1 : Fin 2) * 2048 + 1 * k.val = k.val; rw [e3]; omega)
  rw [hi]
  exact HostPre.table_apply m c d k

/-- The third window's block at any point is the whole row of squared norms. -/
theorem norms_blk (c : Dev nD) (t : Fin cfg0.N) (k : Fin 2048) :
    (iblk m c 2 t : S1x2048.Idx → EReal) (ix2 (0 : Fin 1) k) = cenSq (m ((c : Thread nD τ).loc main_arg1)) k := by
  obtain ⟨-, -, -, -, e4, e5, -⟩ := index_facts t
  show V m c main_v3 (((cfg0.win 2).blk t).view.emb (ix2 (0 : Fin 1) k)) = _
  have hi : ((cfg0.win 2).blk t).view.emb (ix2 (0 : Fin 1) k) = ix2 (0 : Fin 1) k := funext fun a => Fin.ext (by
    match a with
    | ⟨0, _⟩ => show win0_2.index t (0 : Fin 2) * 1 + 1 * 0 = 0; rw [e4]
    | ⟨1, _⟩ => show win0_2.index t (1 : Fin 2) * 2048 + 1 * k.val = k.val; rw [e5]; omega)
  rw [hi]
  exact HostPre.norms_apply m c k

/-! ## What point t writes back, the cover, the array after the run -/

/-- WHAT POINT t WRITES BACK is block t of the result of the two arguments. -/
theorem flushed_eq (c : Dev nD) (t : Fin cfg0.N) :
    (dats m 0 c).flushed 3 t = ((cfg0.win 3).blk t).view.read (Elt Ideal)
      (result (m ((c : Thread nD τ).loc main_arg0)) (m ((c : Thread nD τ).loc main_arg1))) := by
  rw [Value.flushed3]
  unfold Gen.out0_3
  rw [View.canon_unit_zero origin]
  simp only [View.ld_unit_zero (S := S512x512) origin, View.ld_unit_zero (S := S512x2048) origin,
    View.ld_unit_zero (S := S1x2048) origin]
  obtain ⟨-, -, -, -, -, -, e6, e7⟩ := index_facts t
  have hN : cfg0.N = 64 := N_0
  have ht : t.val < 64 := by have := t.isLt; omega
  funext j
  obtain ⟨p, q, rfl⟩ : ∃ (p : Fin 512) (q : Fin 2048), j = ix2 p q := ⟨j 0, j 1, eq_ix2 j⟩
  have hp : p.val < 512 := p.isLt
  have hr : 512 * t.val + p.val < 32768 := by omega
  show k0_pay1 (F := Ideal) (iblk m c 0 t) (iblk m c 1 t) (iblk m c 2 t) (ix2 p q)
    = result (m ((c : Thread nD τ).loc main_arg0)) (m ((c : Thread nD τ).loc main_arg1)) (((cfg0.win 3).blk t).view.emb (ix2 p q))
  have hi : ((cfg0.win 3).blk t).view.emb (ix2 p q) = ix2 (⟨512 * t.val + p.val, hr⟩ : Fin 32768) q := funext fun a => Fin.ext (by
    match a with
    | ⟨0, _⟩ => show win0_3.index t (0 : Fin 2) * 512 + 1 * p.val = 512 * t.val + p.val; rw [e6]; omega
    | ⟨1, _⟩ => show win0_3.index t (1 : Fin 2) * 2048 + 1 * q.val = q.val; rw [e7]; omega)
  rw [hi]
  exact block_result _ _ (iblk m c 0 t) (iblk m c 1 t) (iblk m c 2 t) ⟨512 * t.val + p.val, hr⟩ p
    (fun d => rows_apply m c t p d hr) (fun d k => table_blk m c t d k) (fun k => norms_blk m c t k) q

/-- An index of the result array is in point t's block iff each coordinate is in the block's range on its axis. -/
theorem mem_block (t : Fin cfg0.N) (i : S32768x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v6).slice (win0_3.rect t)).set ↔ _
  rw [View.set_slice_whole, Rect.mem_set_unit]
  exact Iff.rfl

/-- Every entry of the result array lies in some point's block: row r in block r / 512. -/
theorem covered (i : S32768x2048.Idx) :
    ∃ t : Fin cfg0.N, (cfg0.win 3).flush t = true ∧ i ∈ ((cfg0.win 3).blk t).view.set := by
  have hi0 : (i 0).val < 32768 := (i 0).isLt
  have hi1 : (i 1).val < 2048 := (i 1).isLt
  have hN : cfg0.N = 64 := N_0
  have ht : (i 0).val / 512 < cfg0.N := by omega
  obtain ⟨-, -, -, -, -, -, e6, e7⟩ := index_facts ⟨(i 0).val / 512, ht⟩
  have e6' : win0_3.index ⟨(i 0).val / 512, ht⟩ (0 : Fin 2) = (i 0).val / 512 := e6
  refine ⟨⟨(i 0).val / 512, ht⟩, flush0_3 _, ?_⟩
  rw [mem_block]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e6']; omega
  | ⟨1, _⟩ =>
    show win0_3.index ⟨(i 0).val / 512, ht⟩ (1 : Fin 2) * 2048 ≤ (i 1).val
      ∧ (i 1).val < win0_3.index ⟨(i 0).val / 512, ht⟩ (1 : Fin 2) * 2048 + 2048
    rw [e7]; omega

/-- THE RESULT ARRAY after the run. -/
theorem final (c : Dev nD) :
    (dats m 0 c).arrAt 3 cfg0.N = result (m ((c : Thread nD τ).loc main_arg0)) (m ((c : Thread nD τ).loc main_arg1)) :=
  (dats m 0 c).arrAt_eq_of_cover 3 _ (fun t _ => flushed_eq m c t) covered

/-- The kernel's run, read: the result array at the result of the two arguments, the arguments unchanged. -/
theorem run : θ_run defs (onTc (τ := τ) (main (F := Ideal))) ⟨m, fun _ => 0, ρ⟩ fun r => ∀ c : Dev nD,
      r.2.mem ((c : Thread nD τ).loc main_v6) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.Ref.lean ====
/-
  The reference, read entry by entry over the extended reals: its result is `Cert.Soft.result` of the two arguments.

  The reference forms the rows' and the centres' squared norms by host sums (each the zero word plus the sum over the 512
  coordinates), the inner products by one matrix product with the transposed centres, the scores from them, raises each
  score to the power the word `1` (the identity: `Cert.Soft.pow_w1`), and takes the softmax of each row: the row's largest
  score by a fold of `max` from −∞, the exponentials of the differences, their sum, the quotient.
-/
import proofs.«159190_j2010044694578_1_alg».proof.Proof.Gen.ReferenceIdeal.Read
import proofs.«159190_j2010044694578_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Soft

variable (X : (⟨S32768x512, .f32⟩ : BufTy).Contents (Elt Ideal)) (C : (⟨S2048x512, .f32⟩ : BufTy).Contents (Elt Ideal))

/-- The rows' squared norms, spread over the 2048 columns. -/
theorem sq_apply (r : Fin 32768) (k : Fin 2048) : val_main_v6 (F := Ideal) X (ix2 r k) = rowSq X r := by
  rw [val_main_v6_apply, val_main_v2_apply, val_main_v1_apply]
  show Ideal.ofBits .f32 0x00000000#32 + _ = _
  rw [Ideal.ofBits_zero_f32, zero_add]
  refine Finset.sum_congr rfl fun d _ => ?_
  have e : idx_main_v1 (idx_main_v2 (idx_main_v6 (ix2 r k))) d = ix2 r d := funext fun a => Fin.ext (by
    match a with
    | ⟨0, _⟩ => rfl
    | ⟨1, _⟩ => rfl)
  rw [e]
  rfl

/-- The centres' squared norms, repeated down the 32768 rows. -/
theorem cen_apply (r : Fin 32768) (k : Fin 2048) : val_main_v7 (F := Ideal) C (ix2 r k) = cenSq C k := by
  rw [val_main_v7_apply, val_main_v5_apply, val_main_v4_apply]
  show Ideal.ofBits .f32 0x00000000#32 + _ = _
  rw [Ideal.ofBits_zero_f32, zero_add]
  refine Finset.sum_congr rfl fun d _ => ?_
  have e : idx_main_v4 (idx_main_v5 (idx_main_v7 (ix2 r k))) d = ix2 k d := funext fun a => Fin.ext (by
    match a with
    | ⟨0, _⟩ => rfl
    | ⟨1, _⟩ => rfl)
  rw [e]
  rfl

/-- The inner products: the matrix product with the transposed centres. -/
theorem inner_apply (r : Fin 32768) (k : Fin 2048) : val_main_v10 (F := Ideal) X C (ix2 r k) = inner X C r k := by
  rw [val_main_v10_apply]
  refine Finset.sum_congr rfl fun d _ => ?_
  rw [val_main_v9_apply]
  have el : lidx_main_v10 (ix2 r k) d = ix2 r d := funext fun a => Fin.ext (by
    match a with
    | ⟨0, _⟩ => rfl
    | ⟨1, _⟩ => rfl)
  have er : idx_main_v9 (ridx_main_v10 (ix2 r k) d) = ix2 k d := funext fun a => Fin.ext (by
    match a with
    | ⟨0, _⟩ => rfl
    | ⟨1, _⟩ => rfl)
  rw [el, er]

/-- The scores, after the power by the word `1`. -/
theorem score_apply (r : Fin 32768) (k : Fin 2048) : val_main_v23 (F := Ideal) X C (ix2 r k) = scores X C r k := by
  rw [val_main_v23_apply, val_main_v22_apply, val_main_cst_6_apply, val_main_v21_apply, val_main_v20_apply, val_main_cst_5_apply,
    val_main_v19_apply, val_main_v18_apply, val_main_cst_4_apply, val_main_v17_apply, val_main_v16_apply, val_main_cst_3_apply,
    val_main_v15_apply, val_main_v14_apply, val_main_cst_2_apply, val_main_v13_apply, val_main_v12_apply, val_main_v11_apply,
    val_main_cst_1_apply, val_main_v8_apply, sq_apply, cen_apply, inner_apply]
  rw [Ideal.hostPowf_def, Ideal.hostDivf_def, Ideal.hostDivf_def, Ideal.addf_def, Ideal.addf_def, Ideal.maximumf_def, Ideal.subf_def,
    Ideal.mulf_def]
  repeat rw [Ideal.ofBits_def]
  rw [pow_w1]
  rfl

/-- Each row's largest score. -/
theorem top_apply (r : Fin 32768) : val_main_v26 (F := Ideal) X C (ix1 r) = top (scores X C r) := by
  have hR : S32768x2048.Reduces [1] S32768 := by decide
  rw [val_main_v26_apply, val_main_v25_apply, val_main_cst_8_apply, Ideal.maximumf_def, Ideal.ofBits_def]
  unfold top
  refine congrArg (max wNegInf) ?_
  unfold val_main_v24
  refine (Host.reduce_eq_fold_single FloatOps.maximumf _ _ reducesTo_S32768x2048_S32768_d1 hR h_S_ (ix1 r)).trans ?_
  have hf : (val_main_v23 (F := Ideal) X C ∘ hR.lift (ix1 r)) = scores X C r := funext fun k =>
    (congrArg (val_main_v23 (F := Ideal) X C) (funext fun a => Fin.ext (by
      match a with
      | ⟨0, _⟩ => rfl
      | ⟨1, _⟩ => rfl) : hR.lift (ix1 r) k = ix2 r k)).trans (score_apply X C r k)
  exact congrArg (fun f => Finset.fold max wNegInf f (Finset.univ : Finset (Fin 2048))) hf

/-- The exponentials of the scores less the row's largest. -/
theorem exp_apply (r : Fin 32768) (k : Fin 2048) :
    val_main_v30 (F := Ideal) X C (ix2 r k) = Ideal.exp (scores X C r k - top (scores X C r)) := by
  have e : idx_main_v27 (idx_main_v28 (ix2 r k)) = ix1 r := funext fun a => Fin.ext (by
    match a with
    | ⟨0, _⟩ => rfl)
  rw [val_main_v30_apply, val_main_v29_apply, val_main_v28_apply, val_main_v27_apply, e, top_apply, score_apply,
    Ideal.hostUnary_exp_def, Ideal.subf_def]

/-- Each row's sum of exponentials, spread over the columns. -/
theorem den_apply (r : Fin 32768) (k : Fin 2048) :
    val_main_v33 (F := Ideal) X C (ix2 r k) = ∑ k' : Fin 2048, Ideal.exp (scores X C r k' - top (scores X C r)) := by
  rw [val_main_v33_apply, val_main_v32_apply, val_main_v31_apply]
  show Ideal.ofBits .f32 0x00000000#32 + _ = _
  rw [Ideal.ofBits_zero_f32, zero_add]
  refine Finset.sum_congr rfl fun k' _ => ?_
  have e : idx_main_v31 (idx_main_v32 (idx_main_v33 (ix2 r k))) k' = ix2 r k' := funext fun a => Fin.ext (by
    match a with
    | ⟨0, _⟩ => rfl
    | ⟨1, _⟩ => rfl)
  rw [e]
  exact exp_apply X C r k'

/-- The reference's result at (r, k). -/
theorem result_at (r : Fin 32768) (k : Fin 2048) : val_main_v34 (F := Ideal) X C (ix2 r k) = result X C (ix2 r k) := by
  rw [val_main_v34_apply, exp_apply, den_apply, Ideal.hostDivf_def, result_ix2]
  rfl

/-- THE REFERENCE'S RESULT is the softmax of the rows' scores. -/
theorem result_eq : val_main_v34 (F := Ideal) X C = result X C := by
  funext i
  rw [eq_ix2 i]
  exact result_at X C (i 0) (i 1)

end Cert.ReferenceIdeal.RefValue

end
-- ==== Proof.lean ====
/-
  The five claims of this certificate, assembled.

  Both programs compute, for an input `X` of 32768 rows and a set `C` of 2048 centres (512 numbers each), the softmax of
  each row's scores against the centres, the score being 1 / (1 + max (‖x‖² + ‖c‖² − 2⟨x, c⟩) 0 / 1): `Cert.Soft.result X C`.
  The kernel forms ‖c‖² and the centres' table on the host and everything else in 64 blocks of 512 rows; the reference
  forms everything on the host and raises each score to the power one, which is the identity on the extended reals. Over
  the extended reals the kernel's lane sums and matrix product into a zero accumulator are the reference's host sums and
  matrix product, entry by entry, so no law beyond `0 + s = s` and `x ^ 1 = x` joins the two sides, and the finiteness
  of the inputs is never used.
  The frames of the two kernel programs and the kernel's value leg up to its blocks come from the generated modules, as do
  the reference's run and its stages read at an index; written by hand are the specification, the body's arithmetic and the
  reference's stages identified with it, the host's two tables, and the passage from blocks to the whole array.
-/
import proofs.«159190_j2010044694578_1_alg».proof.Defs
import proofs.«159190_j2010044694578_1_alg».proof.Proof.Gen.Kernel
import proofs.«159190_j2010044694578_1_alg».proof.Proof.Gen.Kernel.Skeleton
import proofs.«159190_j2010044694578_1_alg».proof.Proof.Gen.Kernel.Launch
import proofs.«159190_j2010044694578_1_alg».proof.Proof.Gen.Kernel.Points
import proofs.«159190_j2010044694578_1_alg».proof.Proof.Gen.Kernel.Frame
import proofs.«159190_j2010044694578_1_alg».proof.Proof.Gen.KernelIdeal
import proofs.«159190_j2010044694578_1_alg».proof.Proof.Gen.KernelIdeal.Skeleton
import proofs.«159190_j2010044694578_1_alg».proof.Proof.Gen.KernelIdeal.Launch
import proofs.«159190_j2010044694578_1_alg».proof.Proof.Gen.KernelIdeal.Points
import proofs.«159190_j2010044694578_1_alg».proof.Proof.Gen.KernelIdeal.Frame
import proofs.«159190_j2010044694578_1_alg».proof.Proof.Gen.ReferenceIdeal
import proofs.«159190_j2010044694578_1_alg».proof.Proof.Gen.Pre_finite_inputs
import proofs.«159190_j2010044694578_1_alg».proof.Proof.Gen.KernelIdeal.Value
import proofs.«159190_j2010044694578_1_alg».proof.Proof.Gen.ReferenceIdeal.Run
import proofs.«159190_j2010044694578_1_alg».proof.Proof.Gen.ReferenceIdeal.Read
import proofs.«159190_j2010044694578_1_alg».proof.Proof.Blocks
import proofs.«159190_j2010044694578_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments, both programs end with the softmax of the rows' scores. -/
theorem algebraic : Cert.algebraic_KernelIdeal_ReferenceIdeal := by
  intro m ρ m' ρ' _ hagree
  refine ⟨fun c => Cert.Soft.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
